-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x40 .f32) (main_arg4 : FVec F S40 .f32) (main_arg5 : IVec S3200000 32) (main_arg6 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S2000x512 : Shape := ⟨2, ![2000, 512]⟩
abbrev S2000x1 : Shape := ⟨2, ![2000, 1]⟩
abbrev S2000x16 : Shape := ⟨2, ![2000, 16]⟩
abbrev S3200000x16 : Shape := ⟨2, ![3200000, 16]⟩
abbrev S1x16 : Shape := ⟨2, ![1, 16]⟩
abbrev S100000x40 : Shape := ⟨2, ![100000, 40]⟩
abbrev S2000x40 : Shape := ⟨2, ![2000, 40]⟩
abbrev S3200000x40 : Shape := ⟨2, ![3200000, 40]⟩
abbrev S1x40 : Shape := ⟨2, ![1, 40]⟩

abbrev nBuf : Space → Nat
  | .hbm => 70
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S3200000, .i32⟩
  | .hbm, ⟨6, _⟩ => ⟨S3200000, .i32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x1, .f32⟩
  | .hbm, ⟨27, _⟩ => ⟨S100000x16, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x16, .f32⟩
  | .hbm, ⟨37, _⟩ => ⟨S_, .f32⟩
  | .hbm, ⟨38, _⟩ => ⟨S100000x16, .f32⟩
  | .hbm, ⟨39, _⟩ => ⟨S3200000x1, .i32⟩
  | .hbm, ⟨40, _⟩ => ⟨S100000x16, .f32⟩
  | .hbm, ⟨41, _⟩ => ⟨S100000x16, .f32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S100000x16, .f32⟩
  | .hbm, ⟨48, _⟩ => ⟨S100000x16, .f32⟩
  | .hbm, ⟨49, _⟩ => ⟨S100000x1, .f32⟩
  | .hbm, ⟨50, _⟩ => ⟨S100000x1, .f32⟩
  | .hbm, ⟨51, _⟩ => ⟨S100000x40, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x40, .f32⟩
  | .hbm, ⟨61, _⟩ => ⟨S_, .f32⟩
  | .hbm, ⟨62, _⟩ => ⟨S100000x40, .f32⟩
  | .hbm, ⟨63, _⟩ => ⟨S3200000x1, .i32⟩
  | .hbm, ⟨64, _⟩ => ⟨S100000x40, .f32⟩
  | .hbm, ⟨65, _⟩ => ⟨S100000x40, .f32⟩
  | .hbm, ⟨66, _⟩ => ⟨S100000x40, .f32⟩
  | .hbm, ⟨67, _⟩ => ⟨S1x40, .f32⟩
  | .hbm, ⟨68, _⟩ => ⟨S100000x40, .f32⟩
  | .hbm, ⟨69, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S16x40, .f32⟩
  | .local _ .vmem, ⟨12, _⟩ => ⟨S2000x40, .f32⟩
  | .local _ .vmem, ⟨13, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  broadcasts_S2000x1_S2000x512 : S2000x1.Broadcasts S2000x512
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x40_S16x40_0_0 : ∀ a, (![0, 0] : Fin 2 → Nat) a + S16x40.size a ≤ S16x40.size a
  h_S16x40 : 0 < S16x40.numel
  broadcasts_S2000x1_S2000x16 : S2000x1.Broadcasts S2000x16
  inb_S2000x40_S2000x40_0_0 : ∀ a, (![0, 0] : Fin 2 → Nat) a + S2000x40.size a ≤ S2000x40.size a
  h_S2000x40 : 0 < S2000x40.numel
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3200000x1_S3200000_n_0_0_1_wf : ScatterDims.WF S100000 S3200000x1 S3200000 [] [0] [0] 1
  dot_S2000x512_S512x16_S2000x16_1_0_0_1_n_n_wf : DotDims.WF S2000x512 S512x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x40_S2000x40_1_0_0_1_n_n_wf : DotDims.WF S2000x16 S16x40 S2000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S512x16.size a
  hwx0_2 : ∀ i : grid0.Coords, EltTy.bits .f32 = 32 ∨ (Rect.block (s := S512x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S3200000, .i32⟩
  | .hbm, ⟨6, _⟩ => ⟨S3200000, .i32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x512, .f32⟩
  | .hbm, ⟨27, _⟩ => ⟨S100000x512, .f32⟩
  | .hbm, ⟨28, _⟩ => ⟨S100000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S_, .f32⟩
  | .hbm, ⟨39, _⟩ => ⟨S100000x16, .f32⟩
  | .hbm, ⟨40, _⟩ => ⟨S3200000x1, .i32⟩
  | .hbm, ⟨41, _⟩ => ⟨S100000x16, .f32⟩
  | .hbm, ⟨42, _⟩ => ⟨S100000x1, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S100000x1, .f32⟩
  | .hbm, ⟨52, _⟩ => ⟨S100000x16, .f32⟩
  | .hbm, ⟨53, _⟩ => ⟨S100000x16, .f32⟩
  | .hbm, ⟨54, _⟩ => ⟨S100000x40, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x40, .f32⟩
  | .hbm, ⟨64, _⟩ => ⟨S_, .f32⟩
  | .hbm, ⟨65, _⟩ => ⟨S100000x40, .f32⟩
  | .hbm, ⟨66, _⟩ => ⟨S3200000x1, .i32⟩
  | .hbm, ⟨67, _⟩ => ⟨S100000x40, .f32⟩
  | .hbm, ⟨68, _⟩ => ⟨S100000x1, .f32⟩
  | .hbm, ⟨69, _⟩ => ⟨S100000x40, .f32⟩
  | .hbm, ⟨70, _⟩ => ⟨S100000x40, .f32⟩
  | .hbm, ⟨71, _⟩ => ⟨S1x40, .f32⟩
  | .hbm, ⟨72, _⟩ => ⟨S100000x40, .f32⟩
  | .hbm, ⟨73, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3200000x1_S3200000_n_0_0_1_wf : ScatterDims.WF S100000 S3200000x1 S3200000 [] [0] [0] 1
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KernelRun.lean ====
/-
  The idealized kernel's run, with its result named.

  @main is five segments: the host operations that build the two degree normalisations, the first dense stage, the
  host operations of the first aggregation (gather along edges, sum into destinations, scale, bias, clamp at zero),
  the second dense stage, and the host operations of the second aggregation. Every weakly fair execution runs them in
  order and ends with every unscoped buffer at the contents the last boundary names — the fold `Gen.W5` of the
  segments over the launch memory. Read at the result buffer that is the program's value; read at an argument it is
  the argument as launched.
-/
import proofs.«109372_j27977416966300_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v50) = W5 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v50 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Result

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.ScaledProduct.lean ====
/-
  Rows scaled one by one, then multiplied by a matrix — the arithmetic of the dense stage of one graph-convolution
  layer, at the exact instance.

  For a matrix `x` (M × K), a column of per-row factors `s` (M × 1) and a matrix `w` (K × N) the stage computes

      out (p, q) = Σ_{k < K} (x (p, k) · s (p)) · w (k, q).

  `scaledRowsTimes` is that function of the three arrays. `blockProduct_apply` says that a block of rows put through
  the vector unit — the factor column cast to itself and broadcast along the rows, the product rounded to a narrower
  format (the identity on the extended reals), the matrix unit's product into a zero accumulator — is that same sum at
  every entry of the block: a sum over the whole contraction axis, so a row's result depends on that row alone and
  cutting the rows into blocks changes nothing.
-/
import Idealize.ShloMosaic.Lib.ValueIdx
import Idealize.ShloMosaic.Lib.Pipeline.Value
import Idealize.ShloMosaic.PureOps.Ideal.Laws
import proofs.«109372_j27977416966300_2_alg».proof.Proof.LibMatmul2d
import proofs.«109372_j27977416966300_2_alg».proof.Proof.LibRowwise

noncomputable section

namespace Cert.ScaledProduct

open Idealize.ShloMosaic Idealize.ShloMosaic.ValueIdx
open scoped BigOperators

/-- Entry (p, q) of "row p of `x` scaled by `s p`, times `w`". -/
def scaledRowsTimes {M K N : ℕ} (x : (⟨2, ![M, K]⟩ : Shape).Idx → EReal) (s : (⟨2, ![M, 1]⟩ : Shape).Idx → EReal)
    (w : (⟨2, ![K, N]⟩ : Shape).Idx → EReal) : (⟨2, ![M, N]⟩ : Shape).Idx → EReal :=
  fun i => ∑ k : Fin K, x (ix2 (i 0 : Fin M) k) * s (ix2 (i 0 : Fin M) (0 : Fin 1)) * w (ix2 k (i 1 : Fin N))

theorem scaledRowsTimes_apply {M K N : ℕ} (x : (⟨2, ![M, K]⟩ : Shape).Idx → EReal) (s : (⟨2, ![M, 1]⟩ : Shape).Idx → EReal)
    (w : (⟨2, ![K, N]⟩ : Shape).Idx → EReal) (p : Fin M) (q : Fin N) :
    scaledRowsTimes x s w (ix2 p q) = ∑ k : Fin K, x (ix2 p k) * s (ix2 p (0 : Fin 1)) * w (ix2 k q) := rfl

/-- A block of `B` rows through the vector and matrix units: entry (p, q) is the sum over the contraction axis of
    the scaled row's entries times the matrix's column. -/
theorem blockProduct_apply {B K N : ℕ} (x : FVec Ideal ⟨2, ![B, K]⟩ .f32) (s : FVec Ideal ⟨2, ![B, 1]⟩ .f32)
    (w : FVec Ideal ⟨2, ![K, N]⟩ .f32) (hc : (⟨2, ![B, 1]⟩ : Shape).ShapeCasts ⟨2, ![B, 1]⟩)
    (hb : (⟨2, ![B, 1]⟩ : Shape).Broadcasts ⟨2, ![B, K]⟩) (h₁ h₂ : FTy.bf16.bits < FTy.f32.bits) (p : Fin B) (q : Fin N) :
    matmul (DotDims.plain B K N) none
        (truncf .bf16 (mulf x (broadcastTo ⟨2, ![B, K]⟩ (shapeCast ⟨2, ![B, 1]⟩ s hc) hb)) h₁) (truncf .bf16 w h₂)
        (constant ⟨2, ![B, N]⟩ .f32 0x00000000#32) (ix2 p q)
      = ∑ k : Fin K, x (ix2 p k) * s (ix2 p (0 : Fin 1)) * w (ix2 k q) := by
  refine (Cert.LibMatmul2d.matmul_plain_apply _ _ p q).trans ?_
  refine Finset.sum_congr rfl fun k _ => ?_
  show x (ix2 p k) * broadcastTo ⟨2, ![B, K]⟩ (shapeCast ⟨2, ![B, 1]⟩ s hc) hb (ix2 p k) * w (ix2 k q) = _
  rw [Cert.LibRowwise.broadcastTo_a1_ab_apply, shapeCast_self]

end Cert.ScaledProduct

end
-- ==== Proof.DenseStage0.lean ====
/-
  The first dense stage as one function of the arrays it is entered with.

  The stage walks the 100000 rows in 50 blocks of 2000. At block `t` it reads rows 2000·t … 2000·t + 1999 of the
  feature matrix (all 512 columns) and of the one-column array of per-row factors, and the whole 512 × 16 weight
  matrix; it writes rows 2000·t … 2000·t + 1999 of the 100000 × 16 result. What it writes at (p, q) of the block is
  the sum over the 512 columns of (feature · factor) · weight, which is entry (2000·t + p, q) of
  `scaledRowsTimes` of the three whole arrays: a row of the result depends on the same row of the inputs only. The
  50 blocks cover every row, so after the stage the result array IS that function of the arrays as the stage found them.
-/
import proofs.«109372_j27977416966300_2_alg».proof.Proof.Gen.KernelIdeal.Frame
import proofs.«109372_j27977416966300_2_alg».proof.Proof.ScaledProduct
import Idealize.ShloMosaic.Lib.Pipeline.Value
import Idealize.ShloMosaic.Lib.ValueIdx

set_option maxRecDepth 16384

noncomputable section

namespace Cert.KernelIdeal.DenseStage0

open Cert.KernelIdeal Cert.KernelIdeal.Gen Cert.ScaledProduct
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The stage's result as a function of the arrays it is entered with: features, factor column, weights. -/
abbrev whole (c : Dev nD) : S100000x16.Idx → EReal :=
  scaledRowsTimes (M := 100000) (K := 512) (N := 16) (V c main_arg0) (V c main_v13) (V c main_arg1)

/-- What the body stores at entry (p, q) of its block, from the three blocks it loads. -/
theorem payload_apply (x0 : Vec Ideal S2000x512 .f32) (x1 : Vec Ideal S2000x1 .f32) (x3 : Vec Ideal S512x16 .f32)
    (p : Fin 2000) (q : Fin 16) :
    k0_pay1 x0 x1 x3 (ix2 p q) = ∑ k : Fin 512, x0 (ix2 p k) * x1 (ix2 p (0 : Fin 1)) * x3 (ix2 k q) := by
  unfold k0_pay1
  exact blockProduct_apply (B := 2000) (K := 512) (N := 16) x0 x1 x3 _ _ _ _ p q

/-- Where each window's block sits at point `t`: the row blocks move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t` is rows 2000·t … of the feature matrix. -/
theorem features_block (c : Dev nD) (t : Fin cfg0.N) (p : Fin 2000) (k : Fin 512) (r : Fin 100000)
    (hr : r.val = t.val * 2000 + p.val) :
    (iblk0 V c 0 t : Vec Ideal S2000x512 .f32) (ix2 p k) = (V c main_arg0 : S100000x512.Idx → EReal) (ix2 r k) := by
  obtain ⟨e0, e1, -⟩ := idx_facts t
  unfold iblk0
  rw [View.read_apply]
  show (V c main_arg0 : S100000x512.Idx → EReal) _ = _
  refine congrArg (V c main_arg0 : S100000x512.Idx → EReal) ?_
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- The factor block at point `t` is rows 2000·t … of the factor column. -/
theorem factors_block (c : Dev nD) (t : Fin cfg0.N) (p : Fin 2000) (r : Fin 100000)
    (hr : r.val = t.val * 2000 + p.val) :
    (iblk0 V c 1 t : Vec Ideal S2000x1 .f32) (ix2 p (0 : Fin 1)) = (V c main_v13 : S100000x1.Idx → EReal) (ix2 r (0 : Fin 1)) := by
  obtain ⟨-, -, e2, e3, -⟩ := idx_facts t
  unfold iblk0
  rw [View.read_apply]
  show (V c main_v13 : S100000x1.Idx → EReal) _ = _
  refine congrArg (V c main_v13 : S100000x1.Idx → EReal) ?_
  funext a
  apply Fin.ext
  match a with
  | ⟨0, _⟩ => show win0_1.index t (0 : Fin 2) * 2000 + 1 * p.val = r.val; omega
  | ⟨1, _⟩ => show win0_1.index t (1 : Fin 2) * 1 + 1 * 0 = 0; omega

/-- The weight block at every point is the whole weight matrix. -/
theorem weights_block (c : Dev nD) (t : Fin cfg0.N) (k : Fin 512) (q : Fin 16) :
    (iblk0 V c 2 t : Vec Ideal S512x16 .f32) (ix2 k q) = (V c main_arg1 : S512x16.Idx → EReal) (ix2 k q) := by
  obtain ⟨-, -, -, -, e4, e5, -⟩ := idx_facts t
  unfold iblk0
  rw [View.read_apply]
  show (V c main_arg1 : S512x16.Idx → EReal) _ = _
  refine congrArg (V c main_arg1 : S512x16.Idx → EReal) ?_
  funext a
  apply Fin.ext
  match a with
  | ⟨0, _⟩ => show win0_2.index t (0 : Fin 2) * 512 + 1 * k.val = k.val; omega
  | ⟨1, _⟩ => show win0_2.index t (1 : Fin 2) * 16 + 1 * q.val = q.val; omega

/-- Entry (p, q) of the result's block at point `t` is entry (2000·t + p, q) of the result array. -/
theorem result_block_emb (t : Fin cfg0.N) (p : Fin 2000) (q : Fin 16) (r : Fin 100000)
    (hr : r.val = t.val * 2000 + p.val) :
    (((cfg0.win 3).blk t).view.emb (ix2 p q) : S100000x16.Idx) = ix2 r q := by
  obtain ⟨-, -, -, -, -, -, e6, e7⟩ := idx_facts t
  funext a
  apply Fin.ext
  match a with
  | ⟨0, _⟩ => show win0_3.index t (0 : Fin 2) * 2000 + 1 * p.val = r.val; omega
  | ⟨1, _⟩ => show win0_3.index t (1 : Fin 2) * 16 + 1 * q.val = q.val; omega

/-- What point `t` writes back is block `t` of `whole`. -/
theorem flushed_eq (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero zero_offsets]
  simp only [View.ld_unit_zero (S := S2000x512) zero_offsets, View.ld_unit_zero (S := S2000x1) zero_offsets,
    View.ld_unit_zero (S := S512x16) zero_offsets]
  funext j
  obtain ⟨p, q, rfl⟩ : ∃ (p : Fin 2000) (q : Fin 16), j = ix2 p q := ⟨j 0, j 1, eq_ix2 j⟩
  have hN : cfg0.N = 50 := N_0
  have ht : t.val < 50 := hN ▸ t.isLt
  have hp : p.val < 2000 := p.isLt
  obtain ⟨r, hr⟩ : ∃ r : Fin 100000, r.val = t.val * 2000 + p.val := ⟨⟨t.val * 2000 + p.val, by omega⟩, rfl⟩
  refine (payload_apply (iblk0 V c 0 t) (iblk0 V c 1 t) (iblk0 V c 2 t) p q).trans ?_
  rw [View.read_apply, result_block_emb t p q r hr]
  refine (Finset.sum_congr rfl fun k _ => ?_).trans (scaledRowsTimes_apply _ _ _ r q).symm
  rw [features_block V c t p k r hr, factors_block V c t p r hr, weights_block V c t k q]

/-- An index of the result array is in point `t`'s block iff each coordinate is in the block's range on its axis. -/
theorem mem_blk (t : Fin cfg0.N) (i : S100000x16.Idx) :
    i ∈ ((cfg0.win 3).blk t).view.set ↔ ∀ a : Fin 2, win0_3.index t a * S2000x16.size a ≤ (i a).val ∧ (i a).val < win0_3.index t a * S2000x16.size a + S2000x16.size a := by
  show i ∈ ((View.whole main_v15).slice (win0_3.rect t)).set ↔ _
  rw [View.set_slice_whole, Rect.mem_set_unit]
  exact Iff.rfl

/-- Row `r` of the result is written back by point `r / 2000`. -/
theorem cover (i : S100000x16.Idx) : ∃ t : Fin cfg0.N, (cfg0.win 3).flush t = true ∧ i ∈ ((cfg0.win 3).blk t).view.set := by
  have hN : cfg0.N = 50 := N_0
  have hi0 : (i 0).val < 100000 := (i 0).isLt
  have hi1 : (i 1).val < 16 := (i 1).isLt
  obtain ⟨t, ht⟩ : ∃ t : Fin cfg0.N, t.val = (i 0).val / 2000 := ⟨⟨(i 0).val / 2000, by rw [hN]; omega⟩, rfl⟩
  refine ⟨t, flush0_3 t, ?_⟩
  rw [mem_blk]
  obtain ⟨-, -, -, -, -, -, e6, e7⟩ := idx_facts t
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 16 ≤ (i 1).val ∧ (i 1).val < win0_3.index t (1 : Fin 2) * 16 + 16; omega

/-- The result array after the stage is `whole` of the arrays the stage was entered with. -/
theorem final (c : Dev nD) : (dat0 V c).arrAt 3 cfg0.N = whole V c :=
  (dat0 V c).arrAt_eq_of_cover 3 (whole V c) (fun t _ => flushed_eq V c t) (cover)

end Cert.KernelIdeal.DenseStage0

end
-- ==== Proof.DenseStage1.lean ====
/-
  The second dense stage as one function of the arrays it is entered with.

  The same walk as the first stage at other extents: 50 blocks of 2000 rows; at block `t` rows 2000·t … 2000·t + 1999
  of the 100000 × 16 hidden features and of the one-column array of per-row factors, and the whole 16 × 40 weight
  matrix; rows 2000·t … 2000·t + 1999 of the 100000 × 40 result written. Entry (p, q) of a block is the sum over the
  16 hidden columns of (feature · factor) · weight, entry (2000·t + p, q) of `scaledRowsTimes` of the three whole
  arrays, and the 50 blocks cover every row.
-/
import proofs.«109372_j27977416966300_2_alg».proof.Proof.Gen.KernelIdeal.Frame
import proofs.«109372_j27977416966300_2_alg».proof.Proof.ScaledProduct
import Idealize.ShloMosaic.Lib.Pipeline.Value
import Idealize.ShloMosaic.Lib.ValueIdx

set_option maxRecDepth 16384

noncomputable section

namespace Cert.KernelIdeal.DenseStage1

open Cert.KernelIdeal Cert.KernelIdeal.Gen Cert.ScaledProduct
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The stage's result as a function of the arrays it is entered with: features, factor column, weights. -/
abbrev whole (c : Dev nD) : S100000x40.Idx → EReal :=
  scaledRowsTimes (M := 100000) (K := 16) (N := 40) (V c main_v32) (V c main_v33) (V c main_arg3)

/-- What the body stores at entry (p, q) of its block, from the three blocks it loads. -/
theorem payload_apply (x0 : Vec Ideal S2000x16 .f32) (x1 : Vec Ideal S2000x1 .f32) (x3 : Vec Ideal S16x40 .f32)
    (p : Fin 2000) (q : Fin 40) :
    k1_pay1 x0 x1 x3 (ix2 p q) = ∑ k : Fin 16, x0 (ix2 p k) * x1 (ix2 p (0 : Fin 1)) * x3 (ix2 k q) := by
  unfold k1_pay1
  rw [shapeCast_self x0]
  exact blockProduct_apply (B := 2000) (K := 16) (N := 40) x0 x1 x3 _ _ _ _ p q

/-- Where each window's block sits at point `t`: the row blocks move with the point, the weights stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point `t` is rows 2000·t … of the feature matrix. -/
theorem features_block (c : Dev nD) (t : Fin cfg1.N) (p : Fin 2000) (k : Fin 16) (r : Fin 100000)
    (hr : r.val = t.val * 2000 + p.val) :
    (iblk1 V c 0 t : Vec Ideal S2000x16 .f32) (ix2 p k) = (V c main_v32 : S100000x16.Idx → EReal) (ix2 r k) := by
  obtain ⟨e0, e1, -⟩ := idx_facts t
  unfold iblk1
  rw [View.read_apply]
  show (V c main_v32 : S100000x16.Idx → EReal) _ = _
  refine congrArg (V c main_v32 : S100000x16.Idx → EReal) ?_
  funext a
  apply Fin.ext
  match a with
  | ⟨0, _⟩ => show win1_0.index t (0 : Fin 2) * 2000 + 1 * p.val = r.val; omega
  | ⟨1, _⟩ => show win1_0.index t (1 : Fin 2) * 16 + 1 * k.val = k.val; omega

/-- The factor block at point `t` is rows 2000·t … of the factor column. -/
theorem factors_block (c : Dev nD) (t : Fin cfg1.N) (p : Fin 2000) (r : Fin 100000)
    (hr : r.val = t.val * 2000 + p.val) :
    (iblk1 V c 1 t : Vec Ideal S2000x1 .f32) (ix2 p (0 : Fin 1)) = (V c main_v33 : S100000x1.Idx → EReal) (ix2 r (0 : Fin 1)) := by
  obtain ⟨-, -, e2, e3, -⟩ := idx_facts t
  unfold iblk1
  rw [View.read_apply]
  show (V c main_v33 : S100000x1.Idx → EReal) _ = _
  refine congrArg (V c main_v33 : S100000x1.Idx → EReal) ?_
  funext a
  apply Fin.ext
  match a with
  | ⟨0, _⟩ => show win1_1.index t (0 : Fin 2) * 2000 + 1 * p.val = r.val; omega
  | ⟨1, _⟩ => show win1_1.index t (1 : Fin 2) * 1 + 1 * 0 = 0; omega

/-- The weight block at every point is the whole weight matrix. -/
theorem weights_block (c : Dev nD) (t : Fin cfg1.N) (k : Fin 16) (q : Fin 40) :
    (iblk1 V c 2 t : Vec Ideal S16x40 .f32) (ix2 k q) = (V c main_arg3 : S16x40.Idx → EReal) (ix2 k q) := by
  obtain ⟨-, -, -, -, e4, e5, -⟩ := idx_facts t
  unfold iblk1
  rw [View.read_apply]
  show (V c main_arg3 : S16x40.Idx → EReal) _ = _
  refine congrArg (V c main_arg3 : S16x40.Idx → EReal) ?_
  funext a
  apply Fin.ext
  match a with
  | ⟨0, _⟩ => show win1_2.index t (0 : Fin 2) * 16 + 1 * k.val = k.val; omega
  | ⟨1, _⟩ => show win1_2.index t (1 : Fin 2) * 40 + 1 * q.val = q.val; omega

/-- Entry (p, q) of the result's block at point `t` is entry (2000·t + p, q) of the result array. -/
theorem result_block_emb (t : Fin cfg1.N) (p : Fin 2000) (q : Fin 40) (r : Fin 100000)
    (hr : r.val = t.val * 2000 + p.val) :
    (((cfg1.win 3).blk t).view.emb (ix2 p q) : S100000x40.Idx) = ix2 r q := by
  obtain ⟨-, -, -, -, -, -, e6, e7⟩ := idx_facts t
  funext a
  apply Fin.ext
  match a with
  | ⟨0, _⟩ => show win1_3.index t (0 : Fin 2) * 2000 + 1 * p.val = r.val; omega
  | ⟨1, _⟩ => show win1_3.index t (1 : Fin 2) * 40 + 1 * q.val = q.val; omega

/-- What point `t` writes back is block `t` of `whole`. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero zero_offsets]
  simp only [View.ld_unit_zero (S := S2000x16) zero_offsets, View.ld_unit_zero (S := S2000x1) zero_offsets,
    View.ld_unit_zero (S := S16x40) zero_offsets]
  funext j
  obtain ⟨p, q, rfl⟩ : ∃ (p : Fin 2000) (q : Fin 40), j = ix2 p q := ⟨j 0, j 1, eq_ix2 j⟩
  have hN : cfg1.N = 50 := N_1
  have ht : t.val < 50 := hN ▸ t.isLt
  have hp : p.val < 2000 := p.isLt
  obtain ⟨r, hr⟩ : ∃ r : Fin 100000, r.val = t.val * 2000 + p.val := ⟨⟨t.val * 2000 + p.val, by omega⟩, rfl⟩
  refine (payload_apply (iblk1 V c 0 t) (iblk1 V c 1 t) (iblk1 V c 2 t) p q).trans ?_
  rw [View.read_apply, result_block_emb t p q r hr]
  refine (Finset.sum_congr rfl fun k _ => ?_).trans (scaledRowsTimes_apply _ _ _ r q).symm
  rw [features_block V c t p k r hr, factors_block V c t p r hr, weights_block V c t k q]

/-- An index of the result array is in point `t`'s block iff each coordinate is in the block's range on its axis. -/
theorem mem_blk (t : Fin cfg1.N) (i : S100000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v35).slice (win1_3.rect t)).set ↔ _
  rw [View.set_slice_whole, Rect.mem_set_unit]
  exact Iff.rfl

/-- Row `r` of the result is written back by point `r / 2000`. -/
theorem cover (i : S100000x40.Idx) : ∃ t : Fin cfg1.N, (cfg1.win 3).flush t = true ∧ i ∈ ((cfg1.win 3).blk t).view.set := by
  have hN : cfg1.N = 50 := N_1
  have hi0 : (i 0).val < 100000 := (i 0).isLt
  have hi1 : (i 1).val < 40 := (i 1).isLt
  obtain ⟨t, ht⟩ : ∃ t : Fin cfg1.N, t.val = (i 0).val / 2000 := ⟨⟨(i 0).val / 2000, by rw [hN]; omega⟩, rfl⟩
  refine ⟨t, flush1_3 t, ?_⟩
  rw [mem_blk]
  obtain ⟨-, -, -, -, -, -, e6, e7⟩ := idx_facts t
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- The result array after the stage is `whole` of the arrays the stage was entered with. -/
theorem final (c : Dev nD) : (dat1 V c).arrAt 3 cfg1.N = whole V c :=
  (dat1 V c).arrAt_eq_of_cover 3 (whole V c) (fun t _ => flushed_eq V c t) (cover)

end Cert.KernelIdeal.DenseStage1

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.RefStages.lean ====
/-
  The reference's dense stages are `scaledRowsTimes`, and a column made by a reshape is the column made by a broadcast.

  The reference multiplies the features by the per-row factor broadcast over the row, then contracts with the
  weights: at (r, q) the sum over k of (feature (r, k) · factor r) · weight (k, q), the function `scaledRowsTimes`
  of the features, the factor column and the weights. The same holds for its second layer at the other extents.

  A vector of 100000 per-row factors becomes a one-column matrix either by a reshape or by a broadcast along a new
  unit axis: both read the vector at the row.
-/
import proofs.«109372_j27977416966300_2_alg».proof.Proof.Gen.ReferenceIdeal.Read
import proofs.«109372_j27977416966300_2_alg».proof.Proof.ScaledProduct
import proofs.«109372_j27977416966300_2_alg».proof.Proof.LibRowwise
import proofs.«109372_j27977416966300_2_alg».proof.Proof.LibColumns

set_option maxRecDepth 16384

noncomputable section

namespace Cert.ReferenceIdeal.Stages

open Cert.ReferenceIdeal Cert.ReferenceIdeal.Gen Cert.ReferenceIdeal.Read Cert.ScaledProduct
open Idealize.ShloMosaic Idealize.ShloMosaic.ValueIdx
open scoped BigOperators

/-- A per-row vector reshaped to a one-column matrix is the vector broadcast along a new unit axis. -/
theorem column_eq (y : S100000.Idx → EReal) (h : S100000.ShapeCasts S100000x1) :
    (fun i => shapeCast S100000x1 y h i) = broadcastInDim S100000x1 ![0] bcast_S100000_S100000x1_0 y := by
  funext i
  obtain ⟨r, u, rfl⟩ : ∃ (r : Fin 100000) (u : Fin 1), i = ix2 r u := ⟨i 0, i 1, eq_ix2 i⟩
  exact (Cert.LibRowwise.shapeCast_a_a1_apply y h r u).trans
    (Cert.LibColumns.broadcastInDim_a_a1_apply y bcast_S100000_S100000x1_0 r u).symm

/-- The first layer's product: features scaled row by row by the source normalisation, times the weights. -/
theorem dense0_eq (a0 : S100000x512.Idx → EReal) (a1 : S512x16.Idx → EReal) (a5 : S3200000.Idx → BitVec 32) :
    scaledRowsTimes (M := 100000) (K := 512) (N := 16) a0 (val_main_v13 (F := Ideal) a5) a1
      = val_main_v16 (F := Ideal) a0 a1 a5 := by
  funext i
  obtain ⟨r, q, rfl⟩ : ∃ (r : Fin 100000) (q : Fin 16), i = ix2 r q := ⟨i 0, i 1, eq_ix2 i⟩
  rw [val_main_v16_apply, scaledRowsTimes_apply]
  refine Finset.sum_congr rfl fun k _ => ?_
  have e1 : lidx_main_v16 (ix2 r q) k = ix2 r k :=
    funext fun a => Fin.ext (by match a with | ⟨0, _⟩ => rfl | ⟨1, _⟩ => rfl)
  have e2 : ridx_main_v16 (ix2 r q) k = ix2 k q :=
    funext fun a => Fin.ext (by match a with | ⟨0, _⟩ => rfl | ⟨1, _⟩ => rfl)
  have e3 : idx_main_v14 (ix2 r k) = ix2 r (0 : Fin 1) :=
    funext fun a => Fin.ext (by match a with | ⟨0, _⟩ => rfl | ⟨1, _⟩ => rfl)
  rw [e1, e2, val_main_v15_apply, val_main_v14_apply, e3]
  rfl

/-- The second layer's product: hidden features scaled row by row by the source normalisation, times the weights. -/
theorem dense1_eq (a0 : S100000x512.Idx → EReal) (a1 : S512x16.Idx → EReal) (a2 : S16.Idx → EReal)
    (a3 : S16x40.Idx → EReal) (a5 a6 : S3200000.Idx → BitVec 32) :
    scaledRowsTimes (M := 100000) (K := 16) (N := 40) (val_main_v33 (F := Ideal) a0 a1 a2 a5 a6) (val_main_v34 (F := Ideal) a5) a3
      = val_main_v37 (F := Ideal) a0 a1 a2 a3 a5 a6 := by
  funext i
  obtain ⟨r, q, rfl⟩ : ∃ (r : Fin 100000) (q : Fin 40), i = ix2 r q := ⟨i 0, i 1, eq_ix2 i⟩
  rw [val_main_v37_apply, scaledRowsTimes_apply]
  refine Finset.sum_congr rfl fun k _ => ?_
  have e1 : lidx_main_v37 (ix2 r q) k = ix2 r k :=
    funext fun a => Fin.ext (by match a with | ⟨0, _⟩ => rfl | ⟨1, _⟩ => rfl)
  have e2 : ridx_main_v37 (ix2 r q) k = ix2 k q :=
    funext fun a => Fin.ext (by match a with | ⟨0, _⟩ => rfl | ⟨1, _⟩ => rfl)
  have e3 : idx_main_v35 (ix2 r k) = ix2 r (0 : Fin 1) :=
    funext fun a => Fin.ext (by match a with | ⟨0, _⟩ => rfl | ⟨1, _⟩ => rfl)
  rw [e1, e2, val_main_v36_apply, val_main_v35_apply, e3]
  rfl

end Cert.ReferenceIdeal.Stages

end
-- ==== Proof.HostStretches.lean ====
/-
  The three stretches of host operations of the idealized kernel's @main, read at the buffers the next segment
  uses, from ANY contents `W` at the stretch's entry.

  Stretch 0 counts, for every node, the edges leaving it and the edges entering it (a sum of ones scattered along
  the edge lists), clamps the counts at 1 from below, takes the reciprocal square roots — the source and destination
  normalisations — and lays each out as a one-column matrix. Stretch 1 is the first aggregation: the rows of the
  first dense stage's result gathered along the edges' sources (a negative index counted from the end), summed into
  the edges' destinations, each row scaled by its destination normalisation, the bias added, the result clamped at
  zero from below; it also lays the two normalisations out as columns again. Stretch 2 is the second aggregation,
  without the clamp.

  The reference performs the same operations on the same values, so each buffer is stated as the reference's own
  stage function of the arguments: the operations are not opened, only matched. The one difference of spelling — a
  column made by a reshape here, by a broadcast there — is `column_eq`.
-/
import proofs.«109372_j27977416966300_2_alg».proof.Proof.Gen.KernelIdeal.Launch
import proofs.«109372_j27977416966300_2_alg».proof.Proof.Gen.ReferenceIdeal.Read
import proofs.«109372_j27977416966300_2_alg».proof.Proof.RefStages
import Idealize.ShloMosaic.Lib.StableHlo.Run
import Idealize.ShloMosaic.PureOps.Ideal

set_option maxRecDepth 16384

noncomputable section

namespace Cert.KernelIdeal.HostStretches

open Cert.KernelIdeal Cert.KernelIdeal.Gen Cert.ReferenceIdeal.Read Cert.ReferenceIdeal.Stages
open Idealize.ShloMosaic Idealize.ShloMosaic.TcCoe Idealize.SL.Sem Idealize.ShloMosaic.StableHlo

variable (W : Valuation τ sig (Elt Ideal))

/-! ## Stretch 0: the two normalisations -/

theorem stretch0_keeps_main_arg0 : StableHlo.after (hostOps0 (F := Ideal)) W (Proc.devRef .tc main_arg0) = W (Proc.devRef .tc main_arg0) := by
  after_results_simp
theorem stretch0_keeps_main_arg1 : StableHlo.after (hostOps0 (F := Ideal)) W (Proc.devRef .tc main_arg1) = W (Proc.devRef .tc main_arg1) := by
  after_results_simp
theorem stretch0_keeps_main_arg2 : StableHlo.after (hostOps0 (F := Ideal)) W (Proc.devRef .tc main_arg2) = W (Proc.devRef .tc main_arg2) := by
  after_results_simp
theorem stretch0_keeps_main_arg3 : StableHlo.after (hostOps0 (F := Ideal)) W (Proc.devRef .tc main_arg3) = W (Proc.devRef .tc main_arg3) := by
  after_results_simp
theorem stretch0_keeps_main_arg4 : StableHlo.after (hostOps0 (F := Ideal)) W (Proc.devRef .tc main_arg4) = W (Proc.devRef .tc main_arg4) := by
  after_results_simp
theorem stretch0_keeps_main_arg5 : StableHlo.after (hostOps0 (F := Ideal)) W (Proc.devRef .tc main_arg5) = W (Proc.devRef .tc main_arg5) := by
  after_results_simp
theorem stretch0_keeps_main_arg6 : StableHlo.after (hostOps0 (F := Ideal)) W (Proc.devRef .tc main_arg6) = W (Proc.devRef .tc main_arg6) := by
  after_results_simp

/-- The source normalisation. -/
theorem stretch0_v11 (a5 : Cert.ReferenceIdeal.S3200000.Idx → BitVec 32) (h5 : W (Proc.devRef .tc main_arg5) = a5) :
    StableHlo.after (hostOps0 (F := Ideal)) W (Proc.devRef .tc main_v11) = val_main_v11 (F := Ideal) a5 := by
  after_results_simp
  rw [h5]
  rfl

/-- The destination normalisation. -/
theorem stretch0_v12 (a6 : Cert.ReferenceIdeal.S3200000.Idx → BitVec 32) (h6 : W (Proc.devRef .tc main_arg6) = a6) :
    StableHlo.after (hostOps0 (F := Ideal)) W (Proc.devRef .tc main_v12) = val_main_v12 (F := Ideal) a6 := by
  after_results_simp
  rw [h6]
  rfl

/-- The source normalisation as a column. -/
theorem stretch0_v13 (a5 : Cert.ReferenceIdeal.S3200000.Idx → BitVec 32) (h5 : W (Proc.devRef .tc main_arg5) = a5) :
    StableHlo.after (hostOps0 (F := Ideal)) W (Proc.devRef .tc main_v13) = val_main_v13 (F := Ideal) a5 := by
  after_results_simp
  rw [h5]
  exact column_eq (val_main_v11 (F := Ideal) a5) shapeCasts_S100000_S100000x1

/-- The destination normalisation as a column. -/
theorem stretch0_v14 (a6 : Cert.ReferenceIdeal.S3200000.Idx → BitVec 32) (h6 : W (Proc.devRef .tc main_arg6) = a6) :
    StableHlo.after (hostOps0 (F := Ideal)) W (Proc.devRef .tc main_v14) = val_main_v27 (F := Ideal) a6 := by
  after_results_simp
  rw [h6]
  exact column_eq (val_main_v12 (F := Ideal) a6) shapeCasts_S100000_S100000x1

/-! ## Stretch 1: the first aggregation -/

theorem stretch1_keeps_main_arg3 : StableHlo.after (hostOps1 (F := Ideal)) W (Proc.devRef .tc main_arg3) = W (Proc.devRef .tc main_arg3) := by
  after_results_simp
theorem stretch1_keeps_main_arg4 : StableHlo.after (hostOps1 (F := Ideal)) W (Proc.devRef .tc main_arg4) = W (Proc.devRef .tc main_arg4) := by
  after_results_simp
theorem stretch1_keeps_main_arg5 : StableHlo.after (hostOps1 (F := Ideal)) W (Proc.devRef .tc main_arg5) = W (Proc.devRef .tc main_arg5) := by
  after_results_simp
theorem stretch1_keeps_main_arg6 : StableHlo.after (hostOps1 (F := Ideal)) W (Proc.devRef .tc main_arg6) = W (Proc.devRef .tc main_arg6) := by
  after_results_simp

/-- The first layer's output: aggregated, scaled, biased, clamped at zero. -/
theorem stretch1_v32 (a0 : Cert.ReferenceIdeal.S100000x512.Idx → EReal) (a1 : Cert.ReferenceIdeal.S512x16.Idx → EReal) (a2 : Cert.ReferenceIdeal.S16.Idx → EReal)
    (a5 a6 : Cert.ReferenceIdeal.S3200000.Idx → BitVec 32)
    (h15 : W (Proc.devRef .tc main_v15) = val_main_v16 (F := Ideal) a0 a1 a5)
    (h14 : W (Proc.devRef .tc main_v14) = val_main_v27 (F := Ideal) a6)
    (h2 : W (Proc.devRef .tc main_arg2) = a2) (h5 : W (Proc.devRef .tc main_arg5) = a5) (h6 : W (Proc.devRef .tc main_arg6) = a6) :
    StableHlo.after (hostOps1 (F := Ideal)) W (Proc.devRef .tc main_v32) = val_main_v33 (F := Ideal) a0 a1 a2 a5 a6 := by
  after_results_simp
  rw [h15, h14, h2, h5, h6]
  rfl

/-- The source normalisation as a column, again. -/
theorem stretch1_v33 (a5 : Cert.ReferenceIdeal.S3200000.Idx → BitVec 32) (h11 : W (Proc.devRef .tc main_v11) = val_main_v11 (F := Ideal) a5) :
    StableHlo.after (hostOps1 (F := Ideal)) W (Proc.devRef .tc main_v33) = val_main_v34 (F := Ideal) a5 := by
  after_results_simp
  rw [h11]
  exact column_eq (val_main_v11 (F := Ideal) a5) shapeCasts_S100000_S100000x1

/-- The destination normalisation as a column, again. -/
theorem stretch1_v34 (a6 : Cert.ReferenceIdeal.S3200000.Idx → BitVec 32) (h12 : W (Proc.devRef .tc main_v12) = val_main_v12 (F := Ideal) a6) :
    StableHlo.after (hostOps1 (F := Ideal)) W (Proc.devRef .tc main_v34) = val_main_v48 (F := Ideal) a6 := by
  after_results_simp
  rw [h12]
  exact column_eq (val_main_v12 (F := Ideal) a6) shapeCasts_S100000_S100000x1

/-! ## Stretch 2: the second aggregation -/

/-- The program's result: the second layer's output, aggregated, scaled, biased. -/
theorem stretch2_v50 (a0 : Cert.ReferenceIdeal.S100000x512.Idx → EReal) (a1 : Cert.ReferenceIdeal.S512x16.Idx → EReal) (a2 : Cert.ReferenceIdeal.S16.Idx → EReal)
    (a3 : Cert.ReferenceIdeal.S16x40.Idx → EReal) (a4 : Cert.ReferenceIdeal.S40.Idx → EReal) (a5 a6 : Cert.ReferenceIdeal.S3200000.Idx → BitVec 32)
    (h35 : W (Proc.devRef .tc main_v35) = val_main_v37 (F := Ideal) a0 a1 a2 a3 a5 a6)
    (h34 : W (Proc.devRef .tc main_v34) = val_main_v48 (F := Ideal) a6)
    (h4 : W (Proc.devRef .tc main_arg4) = a4) (h5 : W (Proc.devRef .tc main_arg5) = a5) (h6 : W (Proc.devRef .tc main_arg6) = a6) :
    StableHlo.after (hostOps2 (F := Ideal)) W (Proc.devRef .tc main_v50) = val_main_v53 (F := Ideal) a0 a1 a2 a3 a4 a5 a6 := by
  after_results_simp
  rw [h35, h34, h4, h5, h6]
  rfl

end Cert.KernelIdeal.HostStretches

end
-- ==== Proof.KernelValue.lean ====
/-
  The idealized kernel's result as a function of its arguments: the reference's.

  The buffer contents are followed through @main's five segments. After the first host stretch the two
  normalisations are the reference's, as vectors and as columns. The first dense stage leaves the features scaled row
  by row by the source normalisation and multiplied by the first weights (`DenseStage0.final`), which is the
  reference's first product (`dense0_eq`). The second host stretch aggregates it along the edges exactly as the
  reference does, so it leaves the reference's hidden features. The second dense stage and the third host stretch
  repeat this at the second layer's extents. Buffers a segment does not write keep their contents, so the arguments
  and the normalisations are available wherever they are read again.
-/
import proofs.«109372_j27977416966300_2_alg».proof.Proof.Gen.KernelIdeal.Frame
import proofs.«109372_j27977416966300_2_alg».proof.Proof.Gen.ReferenceIdeal.Read
import proofs.«109372_j27977416966300_2_alg».proof.Proof.DenseStage0
import proofs.«109372_j27977416966300_2_alg».proof.Proof.DenseStage1
import proofs.«109372_j27977416966300_2_alg».proof.Proof.RefStages
import proofs.«109372_j27977416966300_2_alg».proof.Proof.HostStretches

set_option maxRecDepth 16384

noncomputable section

namespace Cert.KernelIdeal.Walk

open Cert.KernelIdeal Cert.KernelIdeal.Gen Cert.KernelIdeal.HostStretches
open Cert.ReferenceIdeal.Read Cert.ReferenceIdeal.Stages Cert.ScaledProduct
open Idealize.ShloMosaic Idealize.ShloMosaic.TcCoe Idealize.SL.Sem

variable (m : (ℓ : Loc nD τ sig) → Buf (Elt Ideal) ℓ) (ρ : Dev nD → PrngReg) (c : Dev nD)

/-! ## The arguments as launched -/

abbrev x0 : Cert.ReferenceIdeal.S100000x512.Idx → EReal := m ((c : Thread nD τ).loc main_arg0)
abbrev x1 : Cert.ReferenceIdeal.S512x16.Idx → EReal := m ((c : Thread nD τ).loc main_arg1)
abbrev x2 : Cert.ReferenceIdeal.S16.Idx → EReal := m ((c : Thread nD τ).loc main_arg2)
abbrev x3 : Cert.ReferenceIdeal.S16x40.Idx → EReal := m ((c : Thread nD τ).loc main_arg3)
abbrev x4 : Cert.ReferenceIdeal.S40.Idx → EReal := m ((c : Thread nD τ).loc main_arg4)
abbrev x5 : Cert.ReferenceIdeal.S3200000.Idx → BitVec 32 := m ((c : Thread nD τ).loc main_arg5)
abbrev x6 : Cert.ReferenceIdeal.S3200000.Idx → BitVec 32 := m ((c : Thread nD τ).loc main_arg6)

/-! ## After the first host stretch -/

theorem at1_arg0 : W1 m ρ c (Proc.devRef .tc main_arg0) = x0 m c :=
  stretch0_keeps_main_arg0 (W0 m ρ c)
theorem at1_arg1 : W1 m ρ c (Proc.devRef .tc main_arg1) = x1 m c :=
  stretch0_keeps_main_arg1 (W0 m ρ c)
theorem at1_arg2 : W1 m ρ c (Proc.devRef .tc main_arg2) = x2 m c :=
  stretch0_keeps_main_arg2 (W0 m ρ c)
theorem at1_arg3 : W1 m ρ c (Proc.devRef .tc main_arg3) = x3 m c :=
  stretch0_keeps_main_arg3 (W0 m ρ c)
theorem at1_arg4 : W1 m ρ c (Proc.devRef .tc main_arg4) = x4 m c :=
  stretch0_keeps_main_arg4 (W0 m ρ c)
theorem at1_arg5 : W1 m ρ c (Proc.devRef .tc main_arg5) = x5 m c :=
  stretch0_keeps_main_arg5 (W0 m ρ c)
theorem at1_arg6 : W1 m ρ c (Proc.devRef .tc main_arg6) = x6 m c :=
  stretch0_keeps_main_arg6 (W0 m ρ c)
theorem at1_v11 : W1 m ρ c (Proc.devRef .tc main_v11) = val_main_v11 (F := Ideal) (x5 m c) :=
  stretch0_v11 (W0 m ρ c) (x5 m c) rfl
theorem at1_v12 : W1 m ρ c (Proc.devRef .tc main_v12) = val_main_v12 (F := Ideal) (x6 m c) :=
  stretch0_v12 (W0 m ρ c) (x6 m c) rfl
theorem at1_v13 : W1 m ρ c (Proc.devRef .tc main_v13) = val_main_v13 (F := Ideal) (x5 m c) :=
  stretch0_v13 (W0 m ρ c) (x5 m c) rfl
theorem at1_v14 : W1 m ρ c (Proc.devRef .tc main_v14) = val_main_v27 (F := Ideal) (x6 m c) :=
  stretch0_v14 (W0 m ρ c) (x6 m c) rfl

/-! ## After the first dense stage -/

theorem at2_arg2 : W2 m ρ c (Proc.devRef .tc main_arg2) = x2 m c :=
  (W2_of_ne m ρ c main_arg2 (by decide)).trans (at1_arg2 m ρ c)
theorem at2_arg3 : W2 m ρ c (Proc.devRef .tc main_arg3) = x3 m c :=
  (W2_of_ne m ρ c main_arg3 (by decide)).trans (at1_arg3 m ρ c)
theorem at2_arg4 : W2 m ρ c (Proc.devRef .tc main_arg4) = x4 m c :=
  (W2_of_ne m ρ c main_arg4 (by decide)).trans (at1_arg4 m ρ c)
theorem at2_arg5 : W2 m ρ c (Proc.devRef .tc main_arg5) = x5 m c :=
  (W2_of_ne m ρ c main_arg5 (by decide)).trans (at1_arg5 m ρ c)
theorem at2_arg6 : W2 m ρ c (Proc.devRef .tc main_arg6) = x6 m c :=
  (W2_of_ne m ρ c main_arg6 (by decide)).trans (at1_arg6 m ρ c)
theorem at2_v11 : W2 m ρ c (Proc.devRef .tc main_v11) = val_main_v11 (F := Ideal) (x5 m c) :=
  (W2_of_ne m ρ c main_v11 (by decide)).trans (at1_v11 m ρ c)
theorem at2_v12 : W2 m ρ c (Proc.devRef .tc main_v12) = val_main_v12 (F := Ideal) (x6 m c) :=
  (W2_of_ne m ρ c main_v12 (by decide)).trans (at1_v12 m ρ c)
theorem at2_v14 : W2 m ρ c (Proc.devRef .tc main_v14) = val_main_v27 (F := Ideal) (x6 m c) :=
  (W2_of_ne m ρ c main_v14 (by decide)).trans (at1_v14 m ρ c)

/-- The first dense stage's result is the reference's first product. -/
theorem at2_v15 : W2 m ρ c (Proc.devRef .tc main_v15) = val_main_v16 (F := Ideal) (x0 m c) (x1 m c) (x5 m c) := by
  refine (W2_arr m ρ c 3).trans ((DenseStage0.final (V1 m ρ) c).trans ?_)
  show scaledRowsTimes (M := 100000) (K := 512) (N := 16) (W1 m ρ c (Proc.devRef .tc main_arg0))
      (W1 m ρ c (Proc.devRef .tc main_v13)) (W1 m ρ c (Proc.devRef .tc main_arg1)) = _
  rw [at1_arg0 m ρ c, at1_v13 m ρ c, at1_arg1 m ρ c]
  exact dense0_eq (x0 m c) (x1 m c) (x5 m c)

/-! ## After the second host stretch -/

theorem at3_arg3 : W3 m ρ c (Proc.devRef .tc main_arg3) = x3 m c :=
  (stretch1_keeps_main_arg3 (W2 m ρ c)).trans (at2_arg3 m ρ c)
theorem at3_arg4 : W3 m ρ c (Proc.devRef .tc main_arg4) = x4 m c :=
  (stretch1_keeps_main_arg4 (W2 m ρ c)).trans (at2_arg4 m ρ c)
theorem at3_arg5 : W3 m ρ c (Proc.devRef .tc main_arg5) = x5 m c :=
  (stretch1_keeps_main_arg5 (W2 m ρ c)).trans (at2_arg5 m ρ c)
theorem at3_arg6 : W3 m ρ c (Proc.devRef .tc main_arg6) = x6 m c :=
  (stretch1_keeps_main_arg6 (W2 m ρ c)).trans (at2_arg6 m ρ c)
theorem at3_v32 : W3 m ρ c (Proc.devRef .tc main_v32)
    = val_main_v33 (F := Ideal) (x0 m c) (x1 m c) (x2 m c) (x5 m c) (x6 m c) :=
  stretch1_v32 (W2 m ρ c) (x0 m c) (x1 m c) (x2 m c) (x5 m c) (x6 m c) (at2_v15 m ρ c) (at2_v14 m ρ c) (at2_arg2 m ρ c)
    (at2_arg5 m ρ c) (at2_arg6 m ρ c)
theorem at3_v33 : W3 m ρ c (Proc.devRef .tc main_v33) = val_main_v34 (F := Ideal) (x5 m c) :=
  stretch1_v33 (W2 m ρ c) (x5 m c) (at2_v11 m ρ c)
theorem at3_v34 : W3 m ρ c (Proc.devRef .tc main_v34) = val_main_v48 (F := Ideal) (x6 m c) :=
  stretch1_v34 (W2 m ρ c) (x6 m c) (at2_v12 m ρ c)

/-! ## After the second dense stage -/

theorem at4_arg4 : W4 m ρ c (Proc.devRef .tc main_arg4) = x4 m c :=
  (W4_of_ne m ρ c main_arg4 (by decide)).trans (at3_arg4 m ρ c)
theorem at4_arg5 : W4 m ρ c (Proc.devRef .tc main_arg5) = x5 m c :=
  (W4_of_ne m ρ c main_arg5 (by decide)).trans (at3_arg5 m ρ c)
theorem at4_arg6 : W4 m ρ c (Proc.devRef .tc main_arg6) = x6 m c :=
  (W4_of_ne m ρ c main_arg6 (by decide)).trans (at3_arg6 m ρ c)
theorem at4_v34 : W4 m ρ c (Proc.devRef .tc main_v34) = val_main_v48 (F := Ideal) (x6 m c) :=
  (W4_of_ne m ρ c main_v34 (by decide)).trans (at3_v34 m ρ c)

/-- The second dense stage's result is the reference's second product. -/
theorem at4_v35 : W4 m ρ c (Proc.devRef .tc main_v35)
    = val_main_v37 (F := Ideal) (x0 m c) (x1 m c) (x2 m c) (x3 m c) (x5 m c) (x6 m c) := by
  refine (W4_arr m ρ c 3).trans ((DenseStage1.final (V3 m ρ) c).trans ?_)
  show scaledRowsTimes (M := 100000) (K := 16) (N := 40) (W3 m ρ c (Proc.devRef .tc main_v32))
      (W3 m ρ c (Proc.devRef .tc main_v33)) (W3 m ρ c (Proc.devRef .tc main_arg3)) = _
  rw [at3_v32 m ρ c, at3_v33 m ρ c, at3_arg3 m ρ c]
  exact dense1_eq (x0 m c) (x1 m c) (x2 m c) (x3 m c) (x5 m c) (x6 m c)

/-! ## After the third host stretch: the result -/

/-- The result buffer at the last boundary is the reference's last stage function of the arguments. -/
theorem result : W5 m ρ c (Proc.devRef .tc main_v50)
    = val_main_v53 (F := Ideal) (x0 m c) (x1 m c) (x2 m c) (x3 m c) (x4 m c) (x5 m c) (x6 m c) :=
  stretch2_v50 (W4 m ρ c) (x0 m c) (x1 m c) (x2 m c) (x3 m c) (x4 m c) (x5 m c) (x6 m c) (at4_v35 m ρ c) (at4_v34 m ρ c)
    (at4_arg4 m ρ c) (at4_arg5 m ρ c) (at4_arg6 m ρ c)

end Cert.KernelIdeal.Walk

end
-- ==== Proof.lean ====
/-
  A two-layer graph convolution, `D_in^(-1/2) · A · D_out^(-1/2) · X · W + b` per layer with a clamp at zero between
  the layers, whose dense stage `(X scaled row by row) · W` runs on the TensorCore in blocks of 2000 rows, against the
  same network written with one whole matrix product per layer.

  Over the extended reals the two agree index by index, for every input: a block's entry is the sum over the whole
  contraction axis of (feature · factor) · weight — the narrower format the products pass through is the identity
  there — so a row of the blocked stage is the same sum as that row of the whole product, and the blocks cover every
  row. Everything else (the degree counts, their reciprocal square roots, the gather along the edges' sources, the
  sum into the edges' destinations, the scaling, the bias, the clamp) is the same host operations on both sides applied
  to equal values. No algebraic law beyond this re-reading of a sum is used, so the precondition is never opened.

  The frames of the two kernel programs are the generated ones; the reference's frame is its generated run with the
  result dropped; the ideal pass rewrote nothing, so `preserves` is trivial.
-/
import proofs.«109372_j27977416966300_2_alg».proof.Defs
import proofs.«109372_j27977416966300_2_alg».proof.Proof.Gen.Kernel
import proofs.«109372_j27977416966300_2_alg».proof.Proof.Gen.Kernel.Skeleton
import proofs.«109372_j27977416966300_2_alg».proof.Proof.Gen.Kernel.Launch
import proofs.«109372_j27977416966300_2_alg».proof.Proof.Gen.Kernel.Points
import proofs.«109372_j27977416966300_2_alg».proof.Proof.Gen.Kernel.Frame
import proofs.«109372_j27977416966300_2_alg».proof.Proof.Gen.KernelIdeal
import proofs.«109372_j27977416966300_2_alg».proof.Proof.Gen.KernelIdeal.Skeleton
import proofs.«109372_j27977416966300_2_alg».proof.Proof.Gen.KernelIdeal.Launch
import proofs.«109372_j27977416966300_2_alg».proof.Proof.Gen.KernelIdeal.Points
import proofs.«109372_j27977416966300_2_alg».proof.Proof.Gen.KernelIdeal.Frame
import proofs.«109372_j27977416966300_2_alg».proof.Proof.Gen.ReferenceIdeal
import proofs.«109372_j27977416966300_2_alg».proof.Proof.Gen.ReferenceIdeal.Run
import proofs.«109372_j27977416966300_2_alg».proof.Proof.Gen.ReferenceIdeal.Read
import proofs.«109372_j27977416966300_2_alg».proof.Proof.Gen.Pre_finite_inputs
import proofs.«109372_j27977416966300_2_alg».proof.Proof.KernelRun
import proofs.«109372_j27977416966300_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the reference's last stage function of the arguments:
    the kernel by following its five segments (`Walk.result`), the reference by its own run. -/
theorem algebraic : Cert.algebraic_KernelIdeal_ReferenceIdeal := by
  intro m ρ m' ρ' _ hagree
  refine ⟨fun c => Cert.ReferenceIdeal.Read.val_main_v53 (F := Ideal) (Cert.KernelIdeal.Walk.x0 m c) (Cert.KernelIdeal.Walk.x1 m c)
      (Cert.KernelIdeal.Walk.x2 m c) (Cert.KernelIdeal.Walk.x3 m c) (Cert.KernelIdeal.Walk.x4 m c) (Cert.KernelIdeal.Walk.x5 m c)
      (Cert.KernelIdeal.Walk.x6 m c), ?_, ?_⟩
  · exact (θ_run Cert.KernelIdeal.defs _ _).mono
      (fun _ h c => ⟨(h c).1.trans (Cert.KernelIdeal.Walk.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
